-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x64 : Shape := ⟨3, ![1024, 256, 64]⟩
abbrev S1024x64 : Shape := ⟨2, ![1024, 64]⟩
abbrev S_ : Shape := ⟨0, ![]⟩

class Facts : Prop where
  bcast_S_S1024x256x64 : S_.BroadcastsInDim S1024x256x64 (![] : Fin 0 → Fin S1024x256x64.rank)
  reducesTo_S1024x256x64_S_d0_1_2 : S1024x256x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S1024x256x64 .f32) (main_arg1 : FVec F S1024x256x64 .f32) (main_arg2 : FVec F S1024x64 .f32) : IVec S_ 1 :=
  let main_v0 : FVec F S1024x256x64 .f32 := Host.absf main_arg0
  let main_cst : FVec F S_ .f32 := constant S_ .f32 0x7F800000#32
  let main_v1 : FVec F S1024x256x64 .f32 := broadcastInDim S1024x256x64 ![] bcast_S_S1024x256x64 main_cst
  let main_v2 : IVec S1024x256x64 1 := cmpf .olt main_v0 main_v1
  let main_c : IVec S_ 1 := constantI S_ 1 1#1
  let main_v3 : IVec S_ 1 := (fun x v => Host.reduce IntOp.andi x v reducesTo_S1024x256x64_S_d0_1_2 h_S_) main_v2 main_c
  let main_v4 : FVec F S1024x256x64 .f32 := Host.absf main_arg1
  let main_cst_0 : FVec F S_ .f32 := constant S_ .f32 0x7F800000#32
  let main_v5 : FVec F S1024x256x64 .f32 := broadcastInDim S1024x256x64 ![] bcast_S_S1024x256x64 main_cst_0
  let main_v6 : IVec S1024x256x64 1 := cmpf .olt main_v4 main_v5
  let main_c_1 : IVec S_ 1 := constantI S_ 1 1#1
  let main_v7 : IVec S_ 1 := (fun x v => Host.reduce IntOp.andi x v reducesTo_S1024x256x64_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S1024x256x64 : Shape := ⟨3, ![1024, 256, 64]⟩
abbrev S1024x64 : Shape := ⟨2, ![1024, 64]⟩
abbrev S64x1024 : Shape := ⟨2, ![64, 1024]⟩
abbrev S128x1024 : Shape := ⟨2, ![128, 1024]⟩
abbrev S1024x128x128 : Shape := ⟨3, ![1024, 128, 128]⟩
abbrev S2x1x1024 : Shape := ⟨3, ![2, 1, 1024]⟩
abbrev S64x128x128 : Shape := ⟨3, ![64, 128, 128]⟩
abbrev S1x1x1024 : Shape := ⟨3, ![1, 1, 1024]⟩
abbrev S64x128 : Shape := ⟨2, ![64, 128]⟩
abbrev S1024 : Shape := ⟨1, ![1024]⟩
abbrev S1x1024 : Shape := ⟨2, ![1, 1024]⟩
abbrev S2x1024 : Shape := ⟨2, ![2, 1024]⟩
abbrev S_ : Shape := ⟨0, ![]⟩

abbrev nBuf : Space → Nat
  | .hbm => 14
  | .vmem => 7
  | .smem => 0
  | _ => 0

abbrev bufTy : (tb : Table) → Fin (tcTables nBuf tb) → BufTy
  | .hbm, ⟨0, _⟩ => ⟨S1024x256x64, .f32⟩
  | .hbm, ⟨1, _⟩ => ⟨S1024x256x64, .f32⟩
  | .hbm, ⟨2, _⟩ => ⟨S1024x64, .f32⟩
  | .hbm, ⟨3, _⟩ => ⟨S64x1024, .f32⟩
  | .hbm, ⟨4, _⟩ => ⟨S128x1024, .f32⟩
  | .hbm, ⟨5, _⟩ => ⟨S1024x128x128, .f32⟩
  | .hbm, ⟨6, _⟩ => ⟨S1024x128x128, .f32⟩
  | .hbm, ⟨7, _⟩ => ⟨S2x1x1024, .f32⟩
  | .hbm, ⟨8, _⟩ => ⟨S2x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S128x1024, .f32⟩
  | .local _ .vmem, ⟨5, _⟩ => ⟨S1x1x1024, .f32⟩
  | .local _ .vmem, ⟨6, _⟩ => ⟨S1x1x1024, .f32⟩
  | _, _ => ⟨S1024x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S1024x64_S64x1024_1_0 : S1024x64.Transposes [1, 0] S64x1024
  concatenates_S64x1024_S64x1024_S128x1024_d0 : Shape.Concatenates [S64x1024, S64x1024] S128x1024 0
  shapeCasts_S1024x256x64_S1024x128x128 : S1024x256x64.ShapeCasts S1024x128x128
  inb_S1x1x1024_S1x1x1024_0_0_0 : ∀ a, (![0, 0, 0] : Fin 3 → Nat) a + S1x1x1024.size a ≤ S1x1x1024.size a
  h_S1x1x1024 : 0 < S1x1x1024.numel
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  reduces_S64x128x128_S64x128 : S64x128x128.Reduces [1] S64x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S64x1024_S1024 : S64x1024.Reduces [0] S1024
  shapeCasts_S1024_S1x1024 : S1024.ShapeCasts S1x1024
  shapeCasts_S1x1x1024_S1x1x1024 : S1x1x1024.ShapeCasts S1x1x1024
  shapeCasts_S1x1024_S1x1x1024 : S1x1024.ShapeCasts S1x1x1024
  shapeCasts_S2x1x1024_S2x1024 : S2x1x1024.ShapeCasts S2x1024
  reducesTo_S2x1024_S1024_d0 : S2x1024.ReducesTo [0] S1024
  h_S_ : 0 < S_.numel
  bcast_S_S1024 : S_.BroadcastsInDim S1024 (![] : Fin 0 → Fin S1024.rank)
  dot_S64x128_S128x1024_S64x1024_1_0_0_1_n_n_wf : DotDims.WF S64x128 S128x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S1024x128x128.size a
  hwx0_0 : ∀ i : grid0.Coords, EltTy.bits .f32 = 32 ∨ (Rect.block (s := S1024x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S1024x128x128.size a
  hwx0_1 : ∀ i : grid0.Coords, EltTy.bits .f32 = 32 ∨ (Rect.block (s := S1024x128x128) S64x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf

abbrev win0_0 : Pipeline.Window sig grid0 :=
  Pipeline.Window.ofSpec (Memref.whole main_v2) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256x64 : Shape := ⟨3, ![1024, 256, 64]⟩
abbrev S1024x64 : Shape := ⟨2, ![1024, 64]⟩
abbrev S_ : Shape := ⟨0, ![]⟩
abbrev S1024x1024 : Shape := ⟨2, ![1024, 1024]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x256x64, .f32⟩
  | .hbm, ⟨1, _⟩ => ⟨S1024x256x64, .f32⟩
  | .hbm, ⟨2, _⟩ => ⟨S1024x64, .f32⟩
  | .hbm, ⟨3, _⟩ => ⟨S_, .f32⟩
  | .hbm, ⟨4, _⟩ => ⟨S1024x64, .f32⟩
  | .hbm, ⟨5, _⟩ => ⟨S1024x1024, .f32⟩
  | .hbm, ⟨6, _⟩ => ⟨S_, .f32⟩
  | .hbm, ⟨7, _⟩ => ⟨S1024x64, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | _, _ => ⟨S1024x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S1024x256x64_S1024x64_d1 : S1024x256x64.ReducesTo [1] S1024x64
  h_S_ : 0 < S_.numel
  reducesTo_S1024x1024_S1024_d0 : S1024x1024.ReducesTo [0] S1024
  bcast_S_S1024 : S_.BroadcastsInDim S1024 (![] : Fin 0 → Fin S1024.rank)
  dot_S1024x64_S1024x64_S1024x1024_1_1_0_0_n_n_wf : DotDims.WF S1024x64 S1024x64 S1024x1024 [1] [1] [0] [0] [] []

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

class Facts : Prop extends Facts₀ where

variable [Facts]
-- ==== Proof.KerPieces.lean ====
/-
  What one run of the kernel body leaves in the accumulator row, case by case.

  At the first tile of a core's run the body stores a zero row, reads it back and stores the row plus the tile's
  contribution; at every later tile it reads what the tile before left and stores that plus the contribution. Both are
  the body's one arithmetic term applied to the row it read.
-/
import proofs.«153576_j89824946028957_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the row read back is what the tile before left. -/
theorem out_B (c : Dev nD) (i : grid0.Coords) (a2 : Memref sig .tc .vmem S64x128x128 .f32) (h2 : a2.IsWhole)
    (a3 : Memref sig .tc .vmem S64x128x128 .f32) (h3 : a3.IsWhole) (a4 : Memref sig .tc .vmem S128x1024 .f32) (h4 : a4.IsWhole)
    (a5 : Memref sig .tc .vmem S1x1x1024 .f32) (h5 : a5.IsWhole) (hc : ¬cond0_0 i)
    (x0 x1 : Vec F S64x128x128 .f32) (x2 : Vec F S128x1024 .f32) (xo : Vec F S1x1x1024 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S64x128x128) hz3, View.ld_unit_zero (S := S128x1024) hz2, View.ld_unit_zero (S := S1x1x1024) hz3]

/-- The first tile: the row read back is the zero row just stored. -/
theorem out_A (c : Dev nD) (i : grid0.Coords) (a2 : Memref sig .tc .vmem S64x128x128 .f32) (h2 : a2.IsWhole)
    (a3 : Memref sig .tc .vmem S64x128x128 .f32) (h3 : a3.IsWhole) (a4 : Memref sig .tc .vmem S128x1024 .f32) (h4 : a4.IsWhole)
    (a5 : Memref sig .tc .vmem S1x1x1024 .f32) (h5 : a5.IsWhole) (hc : cond0_0 i)
    (x0 x1 : Vec F S64x128x128 .f32) (x2 : Vec F S128x1024 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1024) hz3]
  simp only [View.readCov_unit_zero (S := S1x1x1024) _ hz3, View.readAt_eq_ld, h2.read_unread, h3.read_unread, h4.read_unread,
    View.ld_unit_zero (S := S64x128x128) hz3, View.ld_unit_zero (S := S128x1024) hz2, View.ld_unit_zero (S := S1x1x1024) hz3]

end Cert.KernelIdeal.KerValue

end
-- ==== Proof.KerPayload.lean ====
/-
  The kernel body's arithmetic at one subcarrier, over the extended reals.

  With the two tiles of 64 directions re-laid as [64, 128, 128] (row p2, lane r2) and the doubled basis [128, 1024]
  (lane r2, subcarrier k), the body adds to the accumulator row, at subcarrier k, the sum over the tile's directions
  of the product of two contractions: each sums the 128 rows lane by lane and then contracts the 128 lanes against
  column k of the doubled basis. The narrowing of the contraction's operands to a 16-bit format is the identity on the
  extended reals, and the contraction starts from a zero accumulator.
-/
import proofs.«153576_j89824946028957_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KerValue

open Cert.KernelIdeal Cert.KernelIdeal.Gen

/-- The sum of a [64, 128, 128] tile over its rows, at direction `dd` and lane `r2`. -/
theorem colSum_apply (x : FVec Ideal S64x128x128 .f32) (h : S64x128x128.Reduces [1] S64x128) (hφ : FKind.Formats .f32)
    (hacc : (0x00000000#32 : BitVec FTy.f32.bits) = FKind.add.neutral .f32 hφ) (dd : Fin 64) (r2 : Fin 128) :
    multiReduction (F := Ideal) .add [1] S64x128 x 0x00000000#32 h hφ hacc (ix2 dd r2) = ∑ p2 : Fin 128, x (ix3 dd p2 r2) :=
  (Ideal.multiReduction_add_single x _ h hφ hacc (ix2 dd r2)).trans
    (Finset.sum_congr rfl fun p2 _ => congrArg x (funext fun a => Fin.ext (by
      match a with
      | ⟨0, _⟩ => rfl
      | ⟨1, _⟩ => rfl
      | ⟨2, _⟩ => rfl)))

/-- The sum of a [64, 1024] product over the tile's directions, at subcarrier `k`. -/
theorem dirSum_apply (x : FVec Ideal S64x1024 .f32) (h : S64x1024.Reduces [0] S1024) (hφ : FKind.Formats .f32)
    (hacc : (0x00000000#32 : BitVec FTy.f32.bits) = FKind.add.neutral .f32 hφ) (k : Fin 1024) :
    multiReduction (F := Ideal) .add [0] S1024 x 0x00000000#32 h hφ hacc (ix1 k) = ∑ dd : Fin 64, x (ix2 dd k) :=
  (Ideal.multiReduction_add_single x _ h hφ hacc (ix1 k)).trans
    (Finset.sum_congr rfl fun dd _ => congrArg x (funext fun a => Fin.ext (by
      match a with
      | ⟨0, _⟩ => rfl
      | ⟨1, _⟩ => rfl)))

/-- The contraction of a [64, 128] operand with a [128, 1024] operand from a zero accumulator, at (dd, k): the sum over the
    128 lanes of the products. -/
theorem laneContract_apply {φ₁ φ₂ : FTy} (l : FVec Ideal S64x128 φ₁) (r : FVec Ideal S128x1024 φ₂) (dd : Fin 64) (k : Fin 1024) :
    matmul (F := Ideal) dot_S64x128_S128x1024_S64x1024_1_0_0_1_n_n none l r (constant S64x1024 .f32 0x00000000#32) (ix2 dd k)
      = ∑ r2 : Fin 128, l (ix2 dd r2) * r (ix2 r2 k) := by
  refine (Ideal.matmul_constant_zero_apply dot_S64x128_S128x1024_S64x1024_1_0_0_1_n_n none l r (ix2 dd k)).trans ?_
  rw [← Equiv.sum_comp (ValueIdx.contrEquiv1 dot_S64x128_S128x1024_S64x1024_1_0_0_1_n_n 128 rfl rfl).symm]
  refine Finset.sum_congr rfl fun q _ => ?_
  have hq := ValueIdx.contrEquiv1_symm_val dot_S64x128_S128x1024_S64x1024_1_0_0_1_n_n 128 rfl rfl q
  have el : dot_S64x128_S128x1024_S64x1024_1_0_0_1_n_n.lhsIdx (ix2 dd k)
      ((ValueIdx.contrEquiv1 dot_S64x128_S128x1024_S64x1024_1_0_0_1_n_n 128 rfl rfl).symm q) = ix2 dd q := funext fun a => Fin.ext (by
    match a with
    | ⟨0, _⟩ =>
      show (dot_S64x128_S128x1024_S64x1024_1_0_0_1_n_n.lhsIdx (ix2 dd k) _ 0).val = dd.val
      unfold DotDims.lhsIdx
      rw [dif_neg (show ¬(0 : Fin S64x128.rank) ∈ dot_S64x128_S128x1024_S64x1024_1_0_0_1_n_n.lhsBatch by decide),
        dif_pos (show (0 : Fin S64x128.rank) ∈ dot_S64x128_S128x1024_S64x1024_1_0_0_1_n_n.lhsNonContracting by decide)]
      rfl
    | ⟨1, _⟩ => exact (dot_S64x128_S128x1024_S64x1024_1_0_0_1_n_n.lhsIdx_val_of_single rfl (ix2 dd k) _).trans hq)
  have er : dot_S64x128_S128x1024_S64x1024_1_0_0_1_n_n.rhsIdx (ix2 dd k)
      ((ValueIdx.contrEquiv1 dot_S64x128_S128x1024_S64x1024_1_0_0_1_n_n 128 rfl rfl).symm q) = ix2 q k := funext fun a => Fin.ext (by
    match a with
    | ⟨0, _⟩ => exact (dot_S64x128_S128x1024_S64x1024_1_0_0_1_n_n.rhsIdx_val_of_single rfl (ix2 dd k) _).trans hq
    | ⟨1, _⟩ =>
      show (dot_S64x128_S128x1024_S64x1024_1_0_0_1_n_n.rhsIdx (ix2 dd k) _ 1).val = k.val
      unfold DotDims.rhsIdx
      rw [dif_neg (show ¬(1 : Fin S128x1024.rank) ∈ dot_S64x128_S128x1024_S64x1024_1_0_0_1_n_n.rhsBatch by decide),
        dif_pos (show (1 : Fin S128x1024.rank) ∈ dot_S64x128_S128x1024_S64x1024_1_0_0_1_n_n.rhsNonContracting by decide)]
      rfl)
  rw [el, er]

/-- What one tile adds at subcarrier `k`, from the two re-laid tiles and the doubled basis. -/
def tileAdd (x0 x1 : Vec Ideal S64x128x128 .f32) (x2 : Vec Ideal S128x1024 .f32) (k : Fin 1024) : EReal :=
  ∑ dd : Fin 64, (∑ r2 : Fin 128, (∑ p2 : Fin 128, x0 (ix3 dd p2 r2)) * x2 (ix2 r2 k))
    * (∑ r2 : Fin 128, (∑ p2 : Fin 128, x1 (ix3 dd p2 r2)) * x2 (ix2 r2 k))

/-- The body's stored row at subcarrier `k`: the row it read there plus the tile's contribution. -/
theorem pay2_apply (x0 x1 : Vec Ideal S64x128x128 .f32) (x2 : Vec Ideal S128x1024 .f32) (xo : Vec Ideal S1x1x1024 .f32)
    (u v : Fin 1) (k : Fin 1024) :
    k0_pay2 (F := Ideal) x0 x1 x2 xo (ix3 u v k) = xo (ix3 u v k) + tileAdd x0 x1 x2 k := by
  unfold k0_pay2 tileAdd
  refine (addf_apply _ _ _).trans (congrArg₂ (· + ·) ?_ ?_)
  · exact congrFun (shapeCast_self xo _) _
  · refine (shapeCast_ab_1ab_apply _ _ u v k).trans ?_
    refine (shapeCast_a_1a_apply _ _ v k).trans ?_
    refine (dirSum_apply _ _ _ _ k).trans ?_
    refine Finset.sum_congr rfl fun dd _ => ?_
    refine (mulf_apply _ _ _).trans (congrArg₂ (· * ·) ?_ ?_)
    · refine (laneContract_apply _ _ dd k).trans ?_
      refine Finset.sum_congr rfl fun r2 _ => congrArg₂ (· * ·) ?_ ?_
      · refine (truncf_apply (ψ := .bf16) _ bitsLt_bf16_f32 _).trans ?_
        refine (colSum_apply _ _ _ _ dd r2).trans ?_
        exact Finset.sum_congr rfl fun p2 _ => congrFun (shapeCast_self x0 _) _
      · refine (truncf_apply (ψ := .bf16) _ bitsLt_bf16_f32 _).trans ?_
        exact congrFun (shapeCast_self x2 _) _
    · refine (laneContract_apply _ _ dd k).trans ?_
      refine Finset.sum_congr rfl fun r2 _ => congrArg₂ (· * ·) ?_ ?_
      · refine (truncf_apply (ψ := .bf16) _ bitsLt_bf16_f32 _).trans ?_
        refine (colSum_apply _ _ _ _ dd r2).trans ?_
        exact Finset.sum_congr rfl fun p2 _ => congrFun (shapeCast_self x1 _) _
      · refine (truncf_apply (ψ := .bf16) _ bitsLt_bf16_f32 _).trans ?_
        exact congrFun (shapeCast_self x2 _) _

/-- The zero row the first tile stores reads zero everywhere. -/
theorem pay1_apply (j : S1x1x1024.Idx) : k0_pay1 (F := Ideal) j = 0 := by
  unfold k0_pay1
  exact Ideal.ofBits_zero_f32

end Cert.KernelIdeal.KerValue

end
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.SumForms.lean ====
/-
  The two arrangements of one double contraction, over plain ℕ-indexed families of extended reals.

  For a direction `d` and a subcarrier `k` the reference contracts the rank axis `r < 64` of the sum over all 256
  sampling points against the basis row `f k`. The kernel first re-lays (256, 64) as (128, 128): lane `r2 = 64·h + r`
  of row `p2` holds rank `r` of sampling point `2·p2 + h`; it sums the 128 rows lane by lane and contracts the 128
  lanes against the basis row repeated twice. The products of the two contractions are then added over 64 directions
  per tile, 8 tiles per core and 2 cores, against the reference's one sum over 1024 directions.
-/
import Mathlib.Data.EReal.Basic
import Mathlib.Algebra.BigOperators.Fin
import Mathlib.Tactic

noncomputable section

namespace Cert.SumForms

open Finset

/-- The kernel's contraction for direction `d` and subcarrier `k`: over the 128 lanes, the lane's column sum times the
    doubled basis row's entry. -/
def laneDot (u : ℕ → ℕ → ℕ → EReal) (f : ℕ → ℕ → EReal) (k d : ℕ) : EReal :=
  ∑ r2 ∈ range 128, (∑ p2 ∈ range 128, u d (2 * p2 + r2 / 64) (r2 % 64)) * f k (r2 % 64)

/-- The reference's contraction for direction `d` and subcarrier `k`: over the 64 ranks, the sum over the 256 sampling
    points times the basis row's entry. -/
def rankDot (u : ℕ → ℕ → ℕ → EReal) (f : ℕ → ℕ → EReal) (k d : ℕ) : EReal :=
  ∑ r ∈ range 64, (∑ p ∈ range 256, u d p r) * f k r

/-- What tile `t` of 64 directions adds at subcarrier `k`. -/
def tileSum (a b : ℕ → ℕ → ℕ → EReal) (f : ℕ → ℕ → EReal) (k t : ℕ) : EReal :=
  ∑ dd ∈ range 64, laneDot a f k (64 * t + dd) * laneDot b f k (64 * t + dd)

/-- The kernel's total at subcarrier `k`: 2 cores of 8 tiles each. -/
def kernelForm (a b : ℕ → ℕ → ℕ → EReal) (f : ℕ → ℕ → EReal) (k : ℕ) : EReal :=
  ∑ c ∈ range 2, ∑ i ∈ range 8, tileSum a b f k (8 * c + i)

/-- The reference's total at subcarrier `k`: all 1024 directions. -/
def refForm (a b : ℕ → ℕ → ℕ → EReal) (f : ℕ → ℕ → EReal) (k : ℕ) : EReal :=
  ∑ d ∈ range 1024, rankDot a f k d * rankDot b f k d

end Cert.SumForms

end
-- ==== Proof.Ext.lean ====
/-
  Arrays indexed by coordinate tuples, extended by zero to families indexed by natural numbers, so that sums over
  their axes can be written over `Finset.range` and re-indexed by plain arithmetic.
-/
import Idealize.ShloMosaic.Lib.ValueIdx
import Mathlib.Data.EReal.Basic

noncomputable section

namespace Cert.Ext

open Idealize.ShloMosaic Idealize.ShloMosaic.ValueIdx

/-- A [1024, 256, 64] array as a family over ℕ³, zero outside the box. -/
def ext3 (x : (⟨3, ![1024, 256, 64]⟩ : Shape).Idx → EReal) (d p r : ℕ) : EReal :=
  if h : d < 1024 ∧ p < 256 ∧ r < 64 then x (ix3 ⟨d, h.1⟩ ⟨p, h.2.1⟩ ⟨r, h.2.2⟩) else 0

/-- A [1024, 64] array as a family over ℕ², zero outside the box. -/
def ext2 (x : (⟨2, ![1024, 64]⟩ : Shape).Idx → EReal) (k r : ℕ) : EReal :=
  if h : k < 1024 ∧ r < 64 then x (ix2 ⟨k, h.1⟩ ⟨r, h.2⟩) else 0

theorem ext3_apply (x : (⟨3, ![1024, 256, 64]⟩ : Shape).Idx → EReal) (d : Fin 1024) (p : Fin 256) (r : Fin 64) :
    x (ix3 d p r) = ext3 x d.val p.val r.val := by
  unfold ext3
  rw [dif_pos ⟨d.isLt, p.isLt, r.isLt⟩]

theorem ext2_apply (x : (⟨2, ![1024, 64]⟩ : Shape).Idx → EReal) (k : Fin 1024) (r : Fin 64) :
    x (ix2 k r) = ext2 x k.val r.val := by
  unfold ext2
  rw [dif_pos ⟨k.isLt, r.isLt⟩]

/-- An array of reals extends to a family of reals. -/
theorem ext3_real (x : (⟨3, ![1024, 256, 64]⟩ : Shape).Idx → EReal) (h : ∀ i, ∃ y : ℝ, x i = (y : EReal)) (d p r : ℕ) :
    ∃ y : ℝ, ext3 x d p r = (y : EReal) := by
  unfold ext3
  split
  · exact h _
  · exact ⟨0, rfl⟩

theorem ext2_real (x : (⟨2, ![1024, 64]⟩ : Shape).Idx → EReal) (h : ∀ i, ∃ y : ℝ, x i = (y : EReal)) (k r : ℕ) :
    ∃ y : ℝ, ext2 x k r = (y : EReal) := by
  unfold ext2
  split
  · exact h _
  · exact ⟨0, rfl⟩

end Cert.Ext

end
-- ==== Proof.KerBlocks.lean ====
/-
  What the kernel's tiles are, entry by entry, in terms of the three argument arrays.

  Before the kernel runs the host re-lays each [1024, 256, 64] argument as [1024, 128, 128] — row p2, lane r2 of
  direction d is sampling point 2·p2 + r2 / 64, rank r2 % 64 — and builds the doubled basis [128, 1024], whose lane
  r2, subcarrier k is entry (k, r2 % 64) of the basis. Tile t of the kernel's run reads directions 64·t … 64·t + 63 of
  the two re-laid arrays and the whole doubled basis, so what it adds at subcarrier k is the tile sum of the
  arguments, written over Finset.range.
-/
import proofs.«153576_j89824946028957_2_alg».proof.Proof.Gen.KernelIdeal.Frame
import proofs.«153576_j89824946028957_2_alg».proof.Proof.KerPayload
import proofs.«153576_j89824946028957_2_alg».proof.Proof.LibKerLayout
import proofs.«153576_j89824946028957_2_alg».proof.Proof.SumForms
import proofs.«153576_j89824946028957_2_alg».proof.Proof.Ext
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.Ext Cert.SumForms

/-! ## The two host layouts at an index -/

/-- The re-laying [1024, 256, 64] → [1024, 128, 128] keeps the row-major position: row p2, lane r2 is sampling point
    2·p2 + r2 / 64, rank r2 % 64. -/
theorem relaid_apply (x : S1024x256x64.Idx → EReal) (h : S1024x256x64.ShapeCasts S1024x128x128) (d : Fin 1024) (p2 r2 : Fin 128) :
    shapeCast S1024x128x128 x h (ix3 d p2 r2)
      = x (ix3 d ⟨2 * p2.val + r2.val / 64, by have := p2.isLt; have := r2.isLt; omega⟩ ⟨r2.val % 64, Nat.mod_lt _ (by decide)⟩) :=
  shapeCast_apply x h _ _ (by
    rw [Shape.rowMajor_val_three, Shape.rowMajor_val_three]
    show (d.val * 256 + (2 * p2.val + r2.val / 64)) * 64 + r2.val % 64 = (d.val * 128 + p2.val) * 128 + r2.val
    have := r2.isLt
    omega)

/-- The doubled basis: the transposed basis stacked on itself reads, at lane r2 and subcarrier k, entry (k, r2 % 64). -/
theorem doubled_apply (x : S1024x64.Idx → EReal) (ht : S1024x64.Transposes [1, 0] S64x1024)
    (hc : Shape.Concatenates [S64x1024, S64x1024] S128x1024 0) (r2 : Fin 128) (k : Fin 1024) :
    concatenate S128x1024 0 [⟨S64x1024, transpose S64x1024 [1, 0] x ht⟩, ⟨S64x1024, transpose S64x1024 [1, 0] x ht⟩] hc (ix2 r2 k)
      = x (ix2 k ⟨r2.val % 64, Nat.mod_lt _ (by decide)⟩) := by
  by_cases hlt : r2.val < 64
  · refine (HostValue.concat2_d0_left _ _ hc r2 k hlt).trans ?_
    refine (transpose_ix2_apply x ht ⟨r2.val, hlt⟩ k).trans ?_
    exact congrArg x (congrArg (ix2 k) (Fin.ext (Nat.mod_eq_of_lt hlt).symm))
  · have hge : 64 ≤ r2.val := Nat.le_of_not_lt hlt
    have hlt' : r2.val - 64 < 64 := by have := r2.isLt; omega
    refine (HostValue.concat2_d0_right _ _ hc r2 k hge hlt').trans ?_
    refine (transpose_ix2_apply x ht ⟨r2.val - 64, hlt'⟩ k).trans ?_
    exact congrArg x (congrArg (ix2 k) (Fin.ext (by show r2.val - 64 = r2.val % 64; have := r2.isLt; omega)))

variable (m : (ℓ : Loc nD τ sig) → Buf (Elt Ideal) ℓ)

/-! ## The arrays the kernel's windows stage, as the host prefix leaves them -/

theorem V_v2 (c : Dev nD) : (V m c main_v2 : S1024x128x128.Idx → Elt Ideal .f32)
    = shapeCast S1024x128x128 (m ((c : Thread nD τ).loc main_arg0)) shapeCasts_S1024x256x64_S1024x128x128 := by
  show StableHlo.after hostOps0 (fun b => m (c, b)) (Proc.devRef .tc main_v2) = _
  after_results
  rfl

theorem V_v3 (c : Dev nD) : (V m c main_v3 : S1024x128x128.Idx → Elt Ideal .f32)
    = shapeCast S1024x128x128 (m ((c : Thread nD τ).loc main_arg1)) shapeCasts_S1024x256x64_S1024x128x128 := by
  show StableHlo.after hostOps0 (fun b => m (c, b)) (Proc.devRef .tc main_v3) = _
  after_results
  rfl

theorem V_v1 (c : Dev nD) : (V m c main_v1 : S128x1024.Idx → Elt Ideal .f32)
    = concatenate S128x1024 0 [⟨S64x1024, transpose S64x1024 [1, 0] (m ((c : Thread nD τ).loc main_arg2)) transposes_S1024x64_S64x1024_1_0⟩,
        ⟨S64x1024, transpose S64x1024 [1, 0] (m ((c : Thread nD τ).loc main_arg2)) transposes_S1024x64_S64x1024_1_0⟩] concatenates_S64x1024_S64x1024_S128x1024_d0 := by
  show StableHlo.after hostOps0 (fun b => m (c, b)) (Proc.devRef .tc main_v1) = _
  after_results

/-! ## The windows' block indices, decided over the 16 grid points -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-! ## Each staged block at an index -/

/-- Tile t of the first re-laid array. -/
theorem iblk0_apply (c : Dev nD) (t : Fin cfg0.N) (dd : Fin 64) (p2 r2 : Fin 128) :
    (iblk m c 0 t : Vec Ideal S64x128x128 .f32) (ix3 dd p2 r2)
      = ext3 (m ((c : Thread nD τ).loc main_arg0)) (64 * t.val + dd.val) (2 * p2.val + r2.val / 64) (r2.val % 64) := by
  have hN : t.val < 16 := lt_of_lt_of_eq t.isLt (show cfg0.N = 16 from N_0)
  obtain ⟨e0, e1, e2, -⟩ := idx_facts t
  have hd : 64 * t.val + dd.val < 1024 := by have := dd.isLt; omega
  unfold iblk
  rw [View.read_apply]
  show V m c main_v2 (((cfg0.win 0).blk t).view.emb (ix3 dd p2 r2)) = _
  have he : ((cfg0.win 0).blk t).view.emb (ix3 dd p2 r2) = (ix3 ⟨64 * t.val + dd.val, hd⟩ p2 r2 : S1024x128x128.Idx) := by
    funext a; apply Fin.ext
    match a with
    | ⟨0, _⟩ => show win0_0.index t (0 : Fin 3) * 64 + 1 * dd.val = 64 * t.val + dd.val; rw [e0]; omega
    | ⟨1, _⟩ => show win0_0.index t (1 : Fin 3) * 128 + 1 * p2.val = p2.val; rw [e1]; omega
    | ⟨2, _⟩ => show win0_0.index t (2 : Fin 3) * 128 + 1 * r2.val = r2.val; rw [e2]; omega
  rw [he]
  refine (congrFun (V_v2 m c) _).trans ?_
  refine (relaid_apply _ _ ⟨64 * t.val + dd.val, hd⟩ p2 r2).trans ?_
  exact ext3_apply _ _ _ _

/-- Tile t of the second re-laid array. -/
theorem iblk1_apply (c : Dev nD) (t : Fin cfg0.N) (dd : Fin 64) (p2 r2 : Fin 128) :
    (iblk m c 1 t : Vec Ideal S64x128x128 .f32) (ix3 dd p2 r2)
      = ext3 (m ((c : Thread nD τ).loc main_arg1)) (64 * t.val + dd.val) (2 * p2.val + r2.val / 64) (r2.val % 64) := by
  have hN : t.val < 16 := lt_of_lt_of_eq t.isLt (show cfg0.N = 16 from N_0)
  obtain ⟨-, -, -, e0, e1, e2, -⟩ := idx_facts t
  have hd : 64 * t.val + dd.val < 1024 := by have := dd.isLt; omega
  unfold iblk
  rw [View.read_apply]
  show V m c main_v3 (((cfg0.win 1).blk t).view.emb (ix3 dd p2 r2)) = _
  have he : ((cfg0.win 1).blk t).view.emb (ix3 dd p2 r2) = (ix3 ⟨64 * t.val + dd.val, hd⟩ p2 r2 : S1024x128x128.Idx) := by
    funext a; apply Fin.ext
    match a with
    | ⟨0, _⟩ => show win0_1.index t (0 : Fin 3) * 64 + 1 * dd.val = 64 * t.val + dd.val; rw [e0]; omega
    | ⟨1, _⟩ => show win0_1.index t (1 : Fin 3) * 128 + 1 * p2.val = p2.val; rw [e1]; omega
    | ⟨2, _⟩ => show win0_1.index t (2 : Fin 3) * 128 + 1 * r2.val = r2.val; rw [e2]; omega
  rw [he]
  refine (congrFun (V_v3 m c) _).trans ?_
  refine (relaid_apply _ _ ⟨64 * t.val + dd.val, hd⟩ p2 r2).trans ?_
  exact ext3_apply _ _ _ _

/-- The doubled basis, the same at every tile. -/
theorem iblk2_apply (c : Dev nD) (t : Fin cfg0.N) (r2 : Fin 128) (k : Fin 1024) :
    (iblk m c 2 t : Vec Ideal S128x1024 .f32) (ix2 r2 k) = ext2 (m ((c : Thread nD τ).loc main_arg2)) k.val (r2.val % 64) := by
  obtain ⟨-, -, -, -, -, -, e0, e1, -⟩ := idx_facts t
  unfold iblk
  rw [View.read_apply]
  show V m c main_v1 (((cfg0.win 2).blk t).view.emb (ix2 r2 k)) = _
  have he : ((cfg0.win 2).blk t).view.emb (ix2 r2 k) = (ix2 r2 k : S128x1024.Idx) := by
    funext a; apply Fin.ext
    match a with
    | ⟨0, _⟩ => show win0_2.index t (0 : Fin 2) * 128 + 1 * r2.val = r2.val; rw [e0]; omega
    | ⟨1, _⟩ => show win0_2.index t (1 : Fin 2) * 1024 + 1 * k.val = k.val; rw [e1]; omega
  rw [he]
  refine (congrFun (V_v1 m c) _).trans ?_
  refine (doubled_apply _ _ _ r2 k).trans ?_
  exact ext2_apply _ _ _

/-! ## What tile t adds -/

theorem tileAdd_blocks (c : Dev nD) (t : Fin cfg0.N) (k : Fin 1024) :
    tileAdd (iblk m c 0 t) (iblk m c 1 t) (iblk m c 2 t) k
      = tileSum (ext3 (m ((c : Thread nD τ).loc main_arg0))) (ext3 (m ((c : Thread nD τ).loc main_arg1)))
          (ext2 (m ((c : Thread nD τ).loc main_arg2))) k.val t.val := by
  unfold tileAdd tileSum laneDot
  simp only [Finset.sum_range]
  refine Finset.sum_congr rfl fun dd _ => congrArg₂ (· * ·) ?_ ?_
  · refine Finset.sum_congr rfl fun r2 _ => congrArg₂ (· * ·) ?_ (iblk2_apply m c t r2 k)
    exact Finset.sum_congr rfl fun p2 _ => iblk0_apply m c t dd p2 r2
  · refine Finset.sum_congr rfl fun r2 _ => congrArg₂ (· * ·) ?_ (iblk2_apply m c t r2 k)
    exact Finset.sum_congr rfl fun p2 _ => iblk1_apply m c t dd p2 r2

end Cert.KernelIdeal.KerValue

end
-- ==== Proof.KerAccum.lean ====
/-
  The kernel's output array: per core, the sum of its eight tiles' contributions.

  A core's accumulator row restarts at the first of its eight tiles (zero plus that tile's contribution) and gains one
  tile's contribution at each later tile; it is written back to the core's row of the [2, 1, 1024] output after the
  eighth. So row c of the output ends, at subcarrier k, at the sum over s < 8 of what tile 8·c + s adds at k. Addition
  on the extended reals is associative and commutative, so the running row after tile 8·q + j is the sum over
  s ≤ j, by induction on j.
-/
import proofs.«153576_j89824946028957_2_alg».proof.Proof.KerPieces
import proofs.«153576_j89824946028957_2_alg».proof.Proof.KerBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.Ext Cert.SumForms

variable (m : (ℓ : Loc nD τ sig) → Buf (Elt Ideal) ℓ)

/-- What tile `n` adds at subcarrier `k`, in terms of the argument arrays. -/
def tileAt (c : Dev nD) (k n : ℕ) : EReal :=
  tileSum (ext3 (m ((c : Thread nD τ).loc main_arg0))) (ext3 (m ((c : Thread nD τ).loc main_arg1)))
    (ext2 (m ((c : Thread nD τ).loc main_arg2))) k n

/-- The accumulator row after tile 8·q + j of a core's run: the sum of the contributions of tiles 8·q … 8·q + j. -/
theorem outsAt_run (c : Dev nD) (q : ℕ) : ∀ (j : ℕ) (_ : j < 8) (h : 8 * q + j < cfg0.N) (u v : Fin 1) (k : Fin 1024),
    outsAt0 m c (8 * q + j) h (ix3 u v k) = ∑ s ∈ Finset.range (j + 1), tileAt m c k.val (8 * q + s)
  | 0, _, h, u, v, k => by
    have h0 : (⟨8 * q + 0, h⟩ : Fin cfg0.N).val % 8 = 0 := by show (8 * q + 0) % 8 = 0; omega
    refine (congrFun (outsAt0_A m c ⟨8 * q + 0, h⟩ h0) _).trans ?_
    refine (congrFun (out_A c (grid0.coords ⟨8 * q + 0, h⟩) (ms0_0 ⟨8 * q + 0, h⟩) (hs0_0 ⟨8 * q + 0, h⟩) (ms0_1 ⟨8 * q + 0, h⟩) (hs0_1 ⟨8 * q + 0, h⟩)
      (ms0_2 ⟨8 * q + 0, h⟩) (hs0_2 ⟨8 * q + 0, h⟩) (ms0_3 ⟨8 * q + 0, h⟩) (hs0_3 ⟨8 * q + 0, h⟩) ((hcond0_0 ⟨8 * q + 0, h⟩).mpr h0)
      (iblk m c 0 ⟨8 * q + 0, h⟩) (iblk m c 1 ⟨8 * q + 0, h⟩) (iblk m c 2 ⟨8 * q + 0, h⟩)) _).trans ?_
    refine (pay2_apply (iblk m c 0 ⟨8 * q + 0, h⟩) (iblk m c 1 ⟨8 * q + 0, h⟩) (iblk m c 2 ⟨8 * q + 0, h⟩) (k0_pay1 (F := Ideal)) u v k).trans ?_
    rw [pay1_apply, zero_add, tileAdd_blocks, Finset.sum_range_one]
    rfl
  | j + 1, hj, h, u, v, k => by
    have hB : ¬(⟨8 * q + (j + 1), h⟩ : Fin cfg0.N).val % 8 = 0 := by show ¬(8 * q + (j + 1)) % 8 = 0; omega
    refine (congrFun (outsAt0_B m c ⟨8 * q + (j + 1), h⟩ hB) _).trans ?_
    refine (congrFun (out_B c (grid0.coords ⟨8 * q + (j + 1), h⟩) (ms0_0 ⟨8 * q + (j + 1), h⟩) (hs0_0 ⟨8 * q + (j + 1), h⟩)
      (ms0_1 ⟨8 * q + (j + 1), h⟩) (hs0_1 ⟨8 * q + (j + 1), h⟩) (ms0_2 ⟨8 * q + (j + 1), h⟩) (hs0_2 ⟨8 * q + (j + 1), h⟩)
      (ms0_3 ⟨8 * q + (j + 1), h⟩) (hs0_3 ⟨8 * q + (j + 1), h⟩) (fun hh => hB ((hcond0_0 ⟨8 * q + (j + 1), h⟩).mp hh))
      (iblk m c 0 ⟨8 * q + (j + 1), h⟩) (iblk m c 1 ⟨8 * q + (j + 1), h⟩) (iblk m c 2 ⟨8 * q + (j + 1), h⟩)
      (outsAt0 m c ((⟨8 * q + (j + 1), h⟩ : Fin cfg0.N).val - 1) (Nat.lt_of_le_of_lt (Nat.sub_le _ _) h))) _).trans ?_
    refine (pay2_apply (iblk m c 0 ⟨8 * q + (j + 1), h⟩) (iblk m c 1 ⟨8 * q + (j + 1), h⟩) (iblk m c 2 ⟨8 * q + (j + 1), h⟩) _ u v k).trans ?_
    rw [tileAdd_blocks, Finset.sum_range_succ _ (j + 1)]
    refine congrArg₂ (· + ·) ?_ rfl
    exact outsAt_run c q j (Nat.lt_of_succ_lt hj) (Nat.lt_of_succ_lt h) u v k

/-- The output array after the run: row c, subcarrier k holds the sum of the contributions of core c's eight tiles. -/
def coreRows (c : Dev nD) : S2x1x1024.Idx → EReal :=
  fun i => ∑ s ∈ Finset.range 8, tileAt m c (i 2).val (8 * (i 0).val + s)

/-- A core's eighth tile writes its row back. -/
theorem flushed_eq (c : Dev nD) (t : Fin cfg0.N) (hf : (cfg0.win 3).flush t = true) :
    (dats m 0 c).flushed 3 t = ((cfg0.win 3).blk t).view.read (Elt Ideal) (coreRows m c) := by
  have hN : t.val < 16 := lt_of_lt_of_eq t.isLt (show cfg0.N = 16 from N_0)
  have h7 : t.val % 8 = 7 := (flush0_3 t).mp hf
  obtain ⟨-, -, -, -, -, -, -, -, e0, e1, e2⟩ := idx_facts t
  show (cfg0.win 3).cut (grid0.coords t) ((dats m 0 c).after 3 t) = _
  rw [after0_3]
  refine funext fun (y : S1x1x1024.Idx) => ?_
  obtain ⟨u, v, k, rfl⟩ : ∃ (u v : Fin 1) (k : Fin 1024), y = ix3 u v k := ⟨y 0, y 1, y 2, eq_ix3 y⟩
  have hu : u.val = 0 := by omega
  have hq : 8 * (t.val / 8) + 7 < cfg0.N := lt_of_lt_of_eq (by omega : 8 * (t.val / 8) + 7 < 16) (show (16 : ℕ) = cfg0.N from N_0.symm)
  have same : ∀ (n : ℕ) (hn : n < cfg0.N), n = t.val → outsAt0 m c n hn = outsAt0 m c t.val t.isLt := fun n hn e => by subst e; rfl
  show outsAt0 m c t.val t.isLt (ix3 u v k) = coreRows m c (((cfg0.win 3).blk t).view.emb (ix3 u v k))
  rw [← same (8 * (t.val / 8) + 7) hq (by omega), outsAt_run m c (t.val / 8) 7 (by decide) hq u v k]
  have h0' : ((((cfg0.win 3).blk t).view.emb (ix3 u v k)) 0).val = t.val / 8 := by
    show win0_3.index t (0 : Fin 3) * 1 + 1 * u.val = t.val / 8; rw [e0]; omega
  have h2' : ((((cfg0.win 3).blk t).view.emb (ix3 u v k)) 2).val = k.val := by
    show win0_3.index t (2 : Fin 3) * 1024 + 1 * k.val = k.val; rw [e2]; omega
  unfold coreRows
  rw [h0', h2']

/-- An index of the output is in tile t's block iff each coordinate is in the block's range on its axis. -/
theorem mem_blk (t : Fin cfg0.N) (i : S2x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v4).slice (win0_3.rect t)).set ↔ _
  rw [View.set_slice_whole, Rect.mem_set_unit]
  exact Iff.rfl

/-- So the output array ends holding the cores' rows: row c is written back by tile 8·c + 7. -/
theorem final_rows (c : Dev nD) : (dats m 0 c).arrAt 3 cfg0.N = coreRows m c :=
  (dats m 0 c).arrAt_eq_of_cover 3 (coreRows m c) (fun t hf => flushed_eq m c t hf) fun i => by
    have hi0 : (i 0).val < 2 := (i 0).isLt
    have hi1 : (i 1).val < 1 := (i 1).isLt
    have hi2 : (i 2).val < 1024 := (i 2).isLt
    have hlt : 8 * (i 0).val + 7 < cfg0.N := lt_of_lt_of_eq (by omega : 8 * (i 0).val + 7 < 16) (show (16 : ℕ) = cfg0.N from N_0.symm)
    obtain ⟨-, -, -, -, -, -, -, -, e0, e1, e2⟩ := idx_facts ⟨8 * (i 0).val + 7, hlt⟩
    refine ⟨⟨8 * (i 0).val + 7, hlt⟩, (flush0_3 _).mpr (by show (8 * (i 0).val + 7) % 8 = 7; omega), ?_⟩
    rw [mem_blk]
    intro a
    match a with
    | ⟨0, _⟩ =>
      show win0_3.index ⟨8 * (i 0).val + 7, hlt⟩ (0 : Fin 3) * 1 ≤ (i 0).val ∧ (i 0).val < win0_3.index ⟨8 * (i 0).val + 7, hlt⟩ (0 : Fin 3) * 1 + 1
      rw [e0]; show (8 * (i 0).val + 7) / 8 * 1 ≤ (i 0).val ∧ (i 0).val < (8 * (i 0).val + 7) / 8 * 1 + 1; omega
    | ⟨1, _⟩ =>
      show win0_3.index ⟨8 * (i 0).val + 7, hlt⟩ (1 : Fin 3) * 1 ≤ (i 1).val ∧ (i 1).val < win0_3.index ⟨8 * (i 0).val + 7, hlt⟩ (1 : Fin 3) * 1 + 1
      rw [e1]; omega
    | ⟨2, _⟩ =>
      show win0_3.index ⟨8 * (i 0).val + 7, hlt⟩ (2 : Fin 3) * 1024 ≤ (i 2).val ∧ (i 2).val < win0_3.index ⟨8 * (i 0).val + 7, hlt⟩ (2 : Fin 3) * 1024 + 1024
      rw [e2]; omega

end Cert.KernelIdeal.KerValue

end
-- ==== Proof.LibTileFold.lean ====
import Mathlib.Data.EReal.Basic
import Mathlib.Algebra.BigOperators.Fin
import Mathlib.Tactic

/-!
# Sums accumulated tile by tile, with one term taken back

General facts about finite sums on the extended reals, used to read a column that a kernel carries across a row of
tiles: reset at the first tile, a tile's partial sum added at every tile, one distinguished term subtracted on one
tile. On the extended reals addition is commutative and associative without any finiteness, so the column ends at
the sum of all the partial sums plus the negated term; cancelling that term against its own copy inside the sum is the
one step that needs it finite.
-/

namespace Cert.LibTileFold

open Finset

/-- A column carried across rows of `n` tiles, at the positions below `M`. Position `t` is tile `t % n` of row `t / n`. At the
    first tile of a row the column restarts from `z + T`; at every other tile it gains `T`; on the tile `t % n = t / n` it also
    gains `N` (the negated distinguished term). Then at every position the column is `z` plus the partial sums so far plus,
    once the diagonal tile is passed, `N`. -/
theorem fold_tiles {n : ℕ} (hn : 0 < n) (M : ℕ) (z : EReal) (T : ℕ → ℕ → EReal) (N : ℕ → EReal) (acc : ℕ → EReal)
    (h0 : ∀ t, t < M → t % n = 0 → acc t = (z + T (t / n) 0) + (if t / n = t % n then N (t / n) else 0))
    (hs : ∀ t, t < M → t % n ≠ 0 → acc t = (acc (t - 1) + T (t / n) (t % n)) + (if t / n = t % n then N (t / n) else 0)) :
    ∀ t, t < M → acc t = (z + ∑ k ∈ range (t % n + 1), T (t / n) k) + (if t / n ≤ t % n then N (t / n) else 0) := by
  suffices H : ∀ q r, r < n → n * q + r < M → acc (n * q + r) = (z + ∑ k ∈ range (r + 1), T q k) + (if q ≤ r then N q else 0) by
    intro t ht
    have h := H (t / n) (t % n) (Nat.mod_lt t hn) (by rw [Nat.div_add_mod]; exact ht)
    rwa [Nat.div_add_mod] at h
  intro q r
  induction r with
  | zero =>
    intro _ hM
    have hd : (n * q + 0) / n = q := by rw [Nat.add_zero, Nat.mul_div_cancel_left q hn]
    have hm : (n * q + 0) % n = 0 := by rw [Nat.add_zero, Nat.mul_mod_right]
    rw [h0 _ hM hm, hd, hm]
    simp only [zero_add, range_one, sum_singleton, Nat.le_zero]
  | succ r ih =>
    intro hr hM
    have hr' : r < n := Nat.lt_of_succ_lt hr
    have hM' : n * q + r < M := Nat.lt_of_succ_lt hM
    have hd : (n * q + (r + 1)) / n = q := by rw [Nat.mul_add_div hn, Nat.div_eq_of_lt hr, Nat.add_zero]
    have hm : (n * q + (r + 1)) % n = r + 1 := by rw [Nat.mul_add_mod, Nat.mod_eq_of_lt hr]
    have hp : n * q + (r + 1) - 1 = n * q + r := rfl
    rw [hs _ hM (by rw [hm]; exact Nat.succ_ne_zero r), hd, hm, hp, ih hr' hM', sum_range_succ (fun k => T q k) (r + 1)]
    by_cases hq : q = r + 1
    · have h1 : ¬ q ≤ r := by omega
      have h2 : q ≤ r + 1 := by omega
      rw [if_neg h1, if_pos hq, if_pos h2, add_zero]
      ac_rfl
    · by_cases hle : q ≤ r
      · have h2 : q ≤ r + 1 := by omega
        rw [if_pos hle, if_neg hq, if_pos h2, add_zero]
        ac_rfl
      · have h2 : ¬ q ≤ r + 1 := by omega
        rw [if_neg hle, if_neg hq, if_neg h2, add_zero, add_zero, add_zero]
        ac_rfl

/-- A sum over `m` tiles of `n` is the sum over `m * n`, position `k` of tile `j` being `n * j + k`. -/
theorem sum_tiles {M : Type*} [AddCommMonoid M] (m n : ℕ) (f : ℕ → M) :
    ∑ j ∈ range m, ∑ k ∈ range n, f (n * j + k) = ∑ i ∈ range (m * n), f i := by
  induction m with
  | zero => simp
  | succ m ih =>
    rw [sum_range_succ, ih, Nat.succ_mul, sum_range_add, Nat.mul_comm m n]

/-- A finite term inside a sum cancels against its negation: the sum over all indices plus the negated term at `i` is
    the sum over the other indices. -/
theorem sum_add_neg_eq_sum_erase {ι : Type*} [DecidableEq ι] (s : Finset ι) (f : ι → EReal) {i : ι} (hi : i ∈ s)
    (r : ℝ) (hr : f i = (r : EReal)) : (∑ j ∈ s, f j) + -(f i) = ∑ j ∈ s.erase i, f j := by
  rw [← add_sum_erase s f hi, hr, add_comm ((r : EReal)) _, add_assoc]
  have : ((r : EReal)) + -((r : EReal)) = 0 := by
    rw [← EReal.coe_neg, ← EReal.coe_add, add_neg_cancel, EReal.coe_zero]
  rw [this, add_zero]

end Cert.LibTileFold
-- ==== Proof.SumLaw.lean ====
/-
  The kernel's arrangement of the double contraction equals the reference's, for real-valued inputs.

  Two regroupings are involved. Inside one direction, the 128 lanes split as lane = 64·h + r with h < 2 and r < 64;
  the basis entry depends on r only, so it factors out of the sum over h, and the pairs (p2, h) enumerate the 256
  sampling points as 2·p2 + h. Factoring a common multiplier out of a sum is distributivity, which fails on the
  extended reals at infinities, so that step is carried out in ℝ and transported along the coercion. Across
  directions, 2 cores of 8 tiles of 64 directions enumerate the 1024 directions as 64·(8·c + i) + dd; regrouping a sum
  needs only commutativity and associativity of addition, so no finiteness is used there.
-/
import proofs.«153576_j89824946028957_2_alg».proof.Proof.SumForms
import proofs.«153576_j89824946028957_2_alg».proof.Proof.LibTileFold

noncomputable section

namespace Cert.SumForms

open Finset

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s ?_ ?_
  · rw [sum_empty, sum_empty, EReal.coe_zero]
  · intro i s hi ih
    rw [sum_insert hi, sum_insert hi, EReal.coe_add, ih]

/-- Over the reals: contracting the 128 lanes (lane `64·h + r` of row `p2` holding rank `r` of point `2·p2 + h`)
    against the doubled row equals contracting the 64 ranks of the sum over all 256 points. -/
theorem real_lane_eq_rank (u : ℕ → ℕ → ℕ → ℝ) (g : ℕ → ℝ) (d : ℕ) :
    ∑ r2 ∈ range 128, (∑ p2 ∈ range 128, u d (2 * p2 + r2 / 64) (r2 % 64)) * g (r2 % 64)
      = ∑ r ∈ range 64, (∑ p ∈ range 256, u d p r) * g r := by
  -- lanes split as 64·h + r
  have h1 : ∑ r2 ∈ range 128, (∑ p2 ∈ range 128, u d (2 * p2 + r2 / 64) (r2 % 64)) * g (r2 % 64)
      = ∑ h ∈ range 2, ∑ r ∈ range 64, (∑ p2 ∈ range 128, u d (2 * p2 + h) r) * g r := by
    have t := Cert.LibTileFold.sum_tiles 2 64
      (fun r2 => (∑ p2 ∈ range 128, u d (2 * p2 + r2 / 64) (r2 % 64)) * g (r2 % 64))
    refine Eq.trans t.symm (sum_congr rfl (fun h _ => sum_congr rfl (fun r hr => ?_)))
    have hr' : r < 64 := mem_range.mp hr
    have e1 : (64 * h + r) / 64 = h := by omega
    have e2 : (64 * h + r) % 64 = r := by omega
    show (∑ p2 ∈ range 128, u d (2 * p2 + (64 * h + r) / 64) ((64 * h + r) % 64)) * g ((64 * h + r) % 64)
      = (∑ p2 ∈ range 128, u d (2 * p2 + h) r) * g r
    rw [e1, e2]
  -- the pairs (p2, h) enumerate the 256 points
  have h2 : ∀ r, ∑ h ∈ range 2, ∑ p2 ∈ range 128, u d (2 * p2 + h) r = ∑ p ∈ range 256, u d p r := by
    intro r
    rw [sum_comm]
    exact Cert.LibTileFold.sum_tiles 128 2 (fun p => u d p r)
  rw [h1, sum_comm]
  refine sum_congr rfl (fun r _ => ?_)
  rw [← sum_mul, h2 r]

/-- The lane contraction of coerced real families is the coercion of the real lane contraction. -/
theorem laneDot_coe (u : ℕ → ℕ → ℕ → ℝ) (g : ℕ → ℕ → ℝ) (k d : ℕ) :
    laneDot (fun d p r => (u d p r : EReal)) (fun k r => (g k r : EReal)) k d
      = ((∑ r2 ∈ range 128, (∑ p2 ∈ range 128, u d (2 * p2 + r2 / 64) (r2 % 64)) * g k (r2 % 64) : ℝ) : EReal) := by
  unfold laneDot
  rw [coe_sum]
  refine sum_congr rfl (fun r2 _ => ?_)
  rw [EReal.coe_mul, coe_sum]

/-- The rank contraction of coerced real families is the coercion of the real rank contraction. -/
theorem rankDot_coe (u : ℕ → ℕ → ℕ → ℝ) (g : ℕ → ℕ → ℝ) (k d : ℕ) :
    rankDot (fun d p r => (u d p r : EReal)) (fun k r => (g k r : EReal)) k d
      = ((∑ r ∈ range 64, (∑ p ∈ range 256, u d p r) * g k r : ℝ) : EReal) := by
  unfold rankDot
  rw [coe_sum]
  refine sum_congr rfl (fun r _ => ?_)
  rw [EReal.coe_mul, coe_sum]

/-- For real-valued families the lane contraction equals the rank contraction. -/
theorem laneDot_eq_rankDot (u : ℕ → ℕ → ℕ → EReal) (f : ℕ → ℕ → EReal)
    (hu : ∀ d p r, ∃ y : ℝ, u d p r = (y : EReal)) (hf : ∀ k r, ∃ y : ℝ, f k r = (y : EReal)) (k d : ℕ) :
    laneDot u f k d = rankDot u f k d := by
  choose u' hu' using hu
  choose f' hf' using hf
  have eu : u = fun d p r => (u' d p r : EReal) := by
    funext d p r
    exact hu' d p r
  have ef : f = fun k r => (f' k r : EReal) := by
    funext k r
    exact hf' k r
  rw [eu, ef, laneDot_coe, rankDot_coe, real_lane_eq_rank u' (f' k) d]

/-- 2 cores of 8 tiles of 64 enumerate 1024 positions as `64·(8·c + i) + dd`; valid in any commutative additive
    monoid. -/
theorem sum_cores_tiles {M : Type*} [AddCommMonoid M] (T : ℕ → M) :
    ∑ c ∈ range 2, ∑ i ∈ range 8, ∑ dd ∈ range 64, T (64 * (8 * c + i) + dd) = ∑ d ∈ range 1024, T d := by
  have h1 : ∀ c, ∑ i ∈ range 8, ∑ dd ∈ range 64, T (64 * (8 * c + i) + dd)
      = ∑ j ∈ range 512, T (512 * c + j) := by
    intro c
    have t := Cert.LibTileFold.sum_tiles 8 64 (fun j => T (512 * c + j))
    refine Eq.trans (sum_congr rfl (fun i _ => sum_congr rfl (fun dd _ => ?_))) t
    show T (64 * (8 * c + i) + dd) = T (512 * c + (64 * i + dd))
    have e : 64 * (8 * c + i) + dd = 512 * c + (64 * i + dd) := by omega
    rw [e]
  exact Eq.trans (sum_congr rfl (fun c _ => h1 c)) (Cert.LibTileFold.sum_tiles 2 512 T)

/-- The kernel's total is the sum over all 1024 directions of the product of the two lane contractions. -/
theorem kernelForm_eq_sum (a b : ℕ → ℕ → ℕ → EReal) (f : ℕ → ℕ → EReal) (k : ℕ) :
    kernelForm a b f k = ∑ d ∈ range 1024, laneDot a f k d * laneDot b f k d := by
  unfold kernelForm tileSum
  exact sum_cores_tiles (fun d => laneDot a f k d * laneDot b f k d)

/-- For real-valued inputs the kernel's total equals the reference's total. -/
theorem kernelForm_eq_refForm (a b : ℕ → ℕ → ℕ → EReal) (f : ℕ → ℕ → EReal)
    (ha : ∀ d p r, ∃ y : ℝ, a d p r = (y : EReal)) (hb : ∀ d p r, ∃ y : ℝ, b d p r = (y : EReal))
    (hf : ∀ k r, ∃ y : ℝ, f k r = (y : EReal)) (k : ℕ) :
    kernelForm a b f k = refForm a b f k := by
  rw [kernelForm_eq_sum]
  unfold refForm
  refine sum_congr rfl (fun d _ => ?_)
  rw [laneDot_eq_rankDot a f ha hf k d, laneDot_eq_rankDot b f hb hf k d]

end Cert.SumForms

end
-- ==== Proof.RefSide.lean ====
/-
  The reference program read at one subcarrier: the sum over the 1024 directions of the product of two rank
  contractions, each the contraction over 64 ranks of the sum over the 256 sampling points against the basis row.
  And: every input satisfying the precondition is an array of real numbers.
-/
import proofs.«153576_j89824946028957_2_alg».proof.Defs
import proofs.«153576_j89824946028957_2_alg».proof.Proof.Gen.ReferenceIdeal.Read
import proofs.«153576_j89824946028957_2_alg».proof.Proof.Gen.Pre_finite_inputs
import proofs.«153576_j89824946028957_2_alg».proof.Proof.SumForms
import proofs.«153576_j89824946028957_2_alg».proof.Proof.Ext
import Idealize.ShloMosaic.Lib.ReduceAll
import Idealize.ShloMosaic.PureOps.Ideal.Laws

noncomputable section

namespace Cert.RefSide

open Cert.ReferenceIdeal Cert.ReferenceIdeal.Gen Cert.ReferenceIdeal.Read Cert.SumForms Cert.Ext
open Idealize.ShloMosaic Idealize.ShloMosaic.ValueIdx Idealize.ShloMosaic.TcCoe Idealize.SL.Sem Finset

/-! ## The reference read at an index -/

/-- The sum over the sampling axis: entry (d, r) of the first reduction of an array is the sum over the 256
    sampling points p of the array at (d, p, r). -/
theorem pointSum_v0 (x0 : (⟨3, ![1024, 256, 64]⟩ : Shape).Idx → EReal) (d : Fin 1024) (r : Fin 64) :
    val_main_v0 (F := Ideal) x0 (ix2 d r) = ∑ p ∈ range 256, ext3 x0 d.val p r.val := by
  rw [val_main_v0_apply, val_main_cst_apply]
  show Ideal.ofBits .f32 0x00000000#32 + _ = _
  rw [Ideal.ofBits_zero_f32, zero_add, ← Fin.sum_univ_eq_sum_range (fun p => ext3 x0 d.val p r.val) 256]
  refine Finset.sum_congr rfl fun p _ => ?_
  rw [← ext3_apply]
  exact congrArg x0 (funext fun a => Fin.ext (by match a with | ⟨0, _⟩ => rfl | ⟨1, _⟩ => rfl | ⟨2, _⟩ => rfl))

/-- The same for the second array. -/
theorem pointSum_v2 (x1 : (⟨3, ![1024, 256, 64]⟩ : Shape).Idx → EReal) (d : Fin 1024) (r : Fin 64) :
    val_main_v2 (F := Ideal) x1 (ix2 d r) = ∑ p ∈ range 256, ext3 x1 d.val p r.val := by
  rw [val_main_v2_apply, val_main_cst_0_apply]
  show Ideal.ofBits .f32 0x00000000#32 + _ = _
  rw [Ideal.ofBits_zero_f32, zero_add, ← Fin.sum_univ_eq_sum_range (fun p => ext3 x1 d.val p r.val) 256]
  refine Finset.sum_congr rfl fun p _ => ?_
  rw [← ext3_apply]
  exact congrArg x1 (funext fun a => Fin.ext (by match a with | ⟨0, _⟩ => rfl | ⟨1, _⟩ => rfl | ⟨2, _⟩ => rfl))

/-- The rank contraction: entry (d, k) of the first product with the basis is the contraction over the 64 ranks. -/
theorem rankDot_v1 (x0 : (⟨3, ![1024, 256, 64]⟩ : Shape).Idx → EReal) (x2 : (⟨2, ![1024, 64]⟩ : Shape).Idx → EReal)
    (d k : Fin 1024) :
    val_main_v1 (F := Ideal) x0 x2 (ix2 d k) = rankDot (ext3 x0) (ext2 x2) k.val d.val := by
  rw [val_main_v1_apply]
  unfold rankDot
  rw [← Fin.sum_univ_eq_sum_range (fun r => (∑ p ∈ range 256, ext3 x0 d.val p r) * ext2 x2 k.val r) 64]
  refine Finset.sum_congr rfl fun r _ => ?_
  have e1 : lidx_main_v1 (ix2 d k) r = ix2 d r :=
    funext fun a => Fin.ext (by match a with | ⟨0, _⟩ => rfl | ⟨1, _⟩ => rfl)
  have e2 : ridx_main_v1 (ix2 d k) r = ix2 k r :=
    funext fun a => Fin.ext (by match a with | ⟨0, _⟩ => rfl | ⟨1, _⟩ => rfl)
  rw [e1, e2, pointSum_v0, ext2_apply x2 k r]

/-- The same for the second array. -/
theorem rankDot_v3 (x1 : (⟨3, ![1024, 256, 64]⟩ : Shape).Idx → EReal) (x2 : (⟨2, ![1024, 64]⟩ : Shape).Idx → EReal)
    (d k : Fin 1024) :
    val_main_v3 (F := Ideal) x1 x2 (ix2 d k) = rankDot (ext3 x1) (ext2 x2) k.val d.val := by
  rw [val_main_v3_apply]
  unfold rankDot
  rw [← Fin.sum_univ_eq_sum_range (fun r => (∑ p ∈ range 256, ext3 x1 d.val p r) * ext2 x2 k.val r) 64]
  refine Finset.sum_congr rfl fun r _ => ?_
  have e1 : lidx_main_v3 (ix2 d k) r = ix2 d r :=
    funext fun a => Fin.ext (by match a with | ⟨0, _⟩ => rfl | ⟨1, _⟩ => rfl)
  have e2 : ridx_main_v3 (ix2 d k) r = ix2 k r :=
    funext fun a => Fin.ext (by match a with | ⟨0, _⟩ => rfl | ⟨1, _⟩ => rfl)
  rw [e1, e2, pointSum_v2, ext2_apply x2 k r]

/-- The reference's sum at subcarrier k, before the division by the number of directions: the sum over the 1024
    directions of the product of the two rank contractions. -/
theorem ref_sum_apply (x0 x1 : (⟨3, ![1024, 256, 64]⟩ : Shape).Idx → EReal)
    (x2 : (⟨2, ![1024, 64]⟩ : Shape).Idx → EReal) (k : Fin 1024) :
    val_main_v5 (F := Ideal) x0 x1 x2 (ix1 k) = refForm (ext3 x0) (ext3 x1) (ext2 x2) k.val := by
  rw [val_main_v5_apply, val_main_cst_1_apply]
  show Ideal.ofBits .f32 0x00000000#32 + _ = _
  rw [Ideal.ofBits_zero_f32, zero_add]
  unfold refForm
  rw [← Fin.sum_univ_eq_sum_range
    (fun d => rankDot (ext3 x0) (ext2 x2) k.val d * rankDot (ext3 x1) (ext2 x2) k.val d) 1024]
  refine Finset.sum_congr rfl fun d _ => ?_
  have e : idx_main_v5 (ix1 k) d = ix2 d k :=
    funext fun a => Fin.ext (by match a with | ⟨0, _⟩ => rfl | ⟨1, _⟩ => rfl)
  rw [e, val_main_v4_apply]
  show _ * _ = _
  rw [rankDot_v1, rankDot_v3]

/-! ## The inputs are arrays of real numbers -/

/-- The bit pattern of +∞. -/
theorem ofBits_inf_f32 : Ideal.ofBits .f32 0x7F800000#32 = (⊤ : EReal) := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ y : ℝ, x = (y : EReal) := by
  rw [ofBits_inf_f32] at h
  induction x using EReal.rec with
  | bot => exact absurd h (by simp [Ideal.cmp])
  | top => exact absurd h (by simp [Ideal.cmp])
  | coe y => exact ⟨y, rfl⟩

/-- The rank-0 shape has one index. -/
instance subsingleton_scalarIdx : Subsingleton (⟨0, ![]⟩ : Shape).Idx := ⟨fun a b => funext fun d => d.elim0⟩

/-- If the conjunction over a whole array of the comparisons |x i| < +∞ is true, every entry is a real number. -/
theorem real_of_all {s u : Shape} {axes : List (Fin s.rank)} (x : s.Idx → EReal)
    (bc : (⟨0, ![]⟩ : Shape).BroadcastsInDim s (![] : Fin 0 → Fin s.rank))
    (init : u.Idx → BitVec 1) (h : s.ReducesTo axes (⟨0, ![]⟩ : Shape)) (hu : 0 < u.numel)
    (e : Host.reduce IntOp.andi
          (cmpf .olt (Host.absf (F := Ideal) (φ := .f32) x)
            (broadcastInDim s ![] bc (constant (F := Ideal) (⟨0, ![]⟩ : Shape) .f32 0x7F800000#32)))
          init h hu ix0 = 1#1) (i : s.Idx) : ∃ y : ℝ, x i = (y : EReal) :=
  real_of_abs_lt_inf (x i) (Host.reduce_andi_all _ init h hu ix0 e i)

/-- Under the precondition, on every device each of the three input arrays is an array of real numbers. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ y : ℝ, m ((c.tc : Thread Cert.KernelIdeal.nD Cert.KernelIdeal.τ).loc Cert.KernelIdeal.main_arg0) i = (y : EReal))
    ∧ (∀ i, ∃ y : ℝ, m ((c.tc : Thread Cert.KernelIdeal.nD Cert.KernelIdeal.τ).loc Cert.KernelIdeal.main_arg1) i = (y : EReal))
    ∧ (∀ i, ∃ y : ℝ, m ((c.tc : Thread Cert.KernelIdeal.nD Cert.KernelIdeal.τ).loc Cert.KernelIdeal.main_arg2) i = (y : EReal)) := by
  have e := congrFun (hpre c) ix0
  dsimp only [Cert.Pre_finite_inputs.fn] at e
  change IntOp.andi (IntOp.andi _ _) _ = 1#1 at e
  rw [IntOp.andi_eq_one, IntOp.andi_eq_one] at e
  obtain ⟨⟨e0, e1⟩, e2⟩ := e
  exact ⟨fun i => real_of_all _ _ _ _ _ e0 i, fun i => real_of_all _ _ _ _ _ e1 i, fun i => real_of_all _ _ _ _ _ e2 i⟩

end Cert.RefSide

end
-- ==== Proof.KerRun.lean ====
/-
  The kernel's result is the reference's.

  After the kernel the host views the [2, 1, 1024] output as [2, 1024], adds the two cores' rows from zero and
  divides by 1024. The reference adds, from zero, the products of its two contractions over all 1024 directions
  and divides by the same 1024. The two numerators are the kernel's and the reference's arrangement of one double sum;
  they agree when every input is a real number, which the precondition says, because pulling the basis entry out
  of the sum over the two halves of the sampling points is distributivity, a law of the reals that fails on the
  extended reals at infinities. The division is the same operation by the same constant on both sides and is never
  opened.
-/
import proofs.«153576_j89824946028957_2_alg».proof.Defs
import proofs.«153576_j89824946028957_2_alg».proof.Proof.KerAccum
import proofs.«153576_j89824946028957_2_alg».proof.Proof.SumLaw
import proofs.«153576_j89824946028957_2_alg».proof.Proof.RefSide

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.Ext Cert.SumForms

/-! ## The host's two layout and reduction steps at an index -/

/-- Dropping the unit axis of [2, 1, 1024]: entry (c, k) is entry (c, 0, k). -/
theorem squeeze_apply (x : S2x1x1024.Idx → EReal) (h : S2x1x1024.ShapeCasts S2x1024) (cc : Fin 2) (k : Fin 1024) :
    shapeCast S2x1024 x h (ix2 cc k) = x (ix3 cc (0 : Fin 1) k) :=
  shapeCast_apply x h _ _ (by
    rw [Shape.rowMajor_val_three, Shape.rowMajor_val_two]
    show (cc.val * 1 + 0) * 1024 + k.val = cc.val * 1024 + k.val
    omega)

/-- The host's sum of the two cores' rows from zero, at subcarrier k. -/
theorem coreSum_apply (x : FVec Ideal S2x1024 .f32) (h' : S2x1024.ReducesTo [0] S1024) (hS : 0 < S_.numel) (k : Fin 1024) :
    Host.reduceAdd (F := Ideal) x (constant (F := Ideal) S_ .f32 0x00000000#32) h' hS (ix1 k) = ∑ cc : Fin 2, x (ix2 cc k) := by
  simp only [Host.reduceAdd, Ideal.hostReduceAdd_def]
  rw [Ideal.hostReduceAdd_single h' (by decide)]
  refine (congrArg₂ (· + ·) (show constant (F := Ideal) S_ .f32 0x00000000#32 (Shape.Idx.first hS) = 0 from Ideal.ofBits_zero_f32) rfl).trans ?_
  rw [zero_add]
  exact Finset.sum_congr rfl fun cc _ => congrArg x (funext fun a => Fin.ext (by
    match a with
    | ⟨0, _⟩ => rfl
    | ⟨1, _⟩ => rfl))

variable (m : (ℓ : Loc nD τ sig) → Buf (Elt Ideal) ℓ) (ρ : Dev nD → PrngReg)

/-! ## The result buffer after the host's tail -/

/-- The operations after the kernel, applied to the cores' rows. -/
theorem tail_value (c : Dev nD) :
    Pipeline.afterTail₀ cfgs (dats m) 0 (V0 m) [hostOps1] c main_v8
      = Host.divf (F := Ideal)
          (Host.reduceAdd (F := Ideal) (shapeCast S2x1024 (coreRows m c) shapeCasts_S2x1x1024_S2x1024)
            (constant (F := Ideal) S_ .f32 0x00000000#32) reducesTo_S2x1024_S1024_d0 h_S_)
          (broadcastInDim S1024 ![] bcast_S_S1024 (constant (F := Ideal) S_ .f32 0x44800000#32)) := by
  have hW : Pipeline.withArrays (cfgs 0).spec c (V0 m c) (fun w => (dats m 0 c).arrAt w (cfgs 0).N) (Proc.devRef .tc main_v4)
      = coreRows m c :=
    (Pipeline.withArrays_arr spec0 launch0.win.arr_inj c _ _ 3).trans (final_rows m c)
  unfold Pipeline.afterTail₀
  show StableHlo.after hostOps1 _ (Proc.devRef .tc main_v8) = _
  after_results
  rw [hW]
  rfl

/-- The kernel's result, subcarrier by subcarrier, is the reference's result of the same arguments, once every input is real. -/
theorem result_eq_ref (c : Dev nD)
    (hfin : (∀ i, ∃ y : ℝ, m ((c : Thread nD τ).loc main_arg0) i = (y : EReal))
      ∧ (∀ i, ∃ y : ℝ, m ((c : Thread nD τ).loc main_arg1) i = (y : EReal))
      ∧ (∀ i, ∃ y : ℝ, m ((c : Thread nD τ).loc main_arg2) i = (y : EReal))) :
    (Host.divf (F := Ideal)
        (Host.reduceAdd (F := Ideal) (shapeCast S2x1024 (coreRows m c) shapeCasts_S2x1x1024_S2x1024)
          (constant (F := Ideal) S_ .f32 0x00000000#32) reducesTo_S2x1024_S1024_d0 h_S_)
        (broadcastInDim S1024 ![] bcast_S_S1024 (constant (F := Ideal) S_ .f32 0x44800000#32)) : S1024.Idx → EReal)
      = Cert.ReferenceIdeal.Read.val_main_v7 (F := Ideal) (m ((c : Thread nD τ).loc main_arg0)) (m ((c : Thread nD τ).loc main_arg1))
          (m ((c : Thread nD τ).loc main_arg2)) := by
  funext j
  obtain ⟨k, rfl⟩ : ∃ k : Fin 1024, j = ix1 k := ⟨j 0, eq_ix1 j⟩
  show FloatOps.hostDivf (Host.reduceAdd (F := Ideal) (shapeCast S2x1024 (coreRows m c) shapeCasts_S2x1x1024_S2x1024)
        (constant (F := Ideal) S_ .f32 0x00000000#32) reducesTo_S2x1024_S1024_d0 h_S_ (ix1 k))
      (broadcastInDim S1024 ![] bcast_S_S1024 (constant (F := Ideal) S_ .f32 0x44800000#32) (ix1 k))
    = FloatOps.hostDivf (Cert.ReferenceIdeal.Read.val_main_v5 (F := Ideal) (m ((c : Thread nD τ).loc main_arg0)) (m ((c : Thread nD τ).loc main_arg1))
        (m ((c : Thread nD τ).loc main_arg2)) (ix1 k)) (Cert.ReferenceIdeal.Read.val_main_v6 (F := Ideal) (ix1 k))
  refine congrArg₂ FloatOps.hostDivf ?_ rfl
  rw [Cert.RefSide.ref_sum_apply, ← kernelForm_eq_refForm _ _ _ (ext3_real _ hfin.1) (ext3_real _ hfin.2.1) (ext2_real _ hfin.2.2)]
  refine (coreSum_apply _ _ _ k).trans ?_
  unfold kernelForm
  rw [Finset.sum_range]
  refine Finset.sum_congr rfl fun cc _ => ?_
  refine (squeeze_apply _ _ cc k).trans ?_
  rfl

/-! ## The run -/

/-- Under the precondition the idealized kernel runs, ends with its result buffer at the reference's function of its own
    arguments, and leaves the arguments as they were. -/
theorem run [Cert.Pre_finite_inputs.Facts] (hpre : Cert.Pre_KernelIdeal m) :
    θ_run defs (onTc (τ := τ) (main (F := Ideal))) ⟨m, fun _ => 0, ρ⟩ fun r => ∀ c : Dev nD,
      r.2.mem ((c.tc : Thread nD τ).loc main_v8)
          = Cert.ReferenceIdeal.Read.val_main_v7 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans
        ((tail_value m c).trans (result_eq_ref m c (Cert.RefSide.finite_of_pre m hpre c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/- The proof of `Cert.Claim` (proofs.«153576_j89824946028957_2_alg».proof.Defs): frame_Kernel ∧ frame_KernelIdeal ∧
   frame_ReferenceIdeal ∧ preserves_Kernel_KernelIdeal ∧ algebraic_KernelIdeal_ReferenceIdeal.

   The kernel computes csi[k] = (1/1024) · Σ_d A[d,k] · B[d,k], where A[d,k] = Σ_p Σ_r atten[d,p,r] · F[k,r] and B likewise
   from the radiation vectors. The reference sums over the 256 sampling points p first and contracts the 64 ranks r
   against row k of F. The kernel views (256, 64) as (128, 128) — row p2, lane r2 = 64·h + r holds rank r of sampling point
   2·p2 + h —, sums the 128 rows lane by lane, contracts the 128 lanes against the basis row written twice, multiplies
   the two contractions, adds the products over tiles of 64 directions into one row per core (8 tiles each, reset at
   a core's first tile), and the host adds the two cores' rows and divides by 1024. Over the extended reals every
   step but one is a regrouping of finite sums, valid without any finiteness; the one exception is taking the basis
   entry F[k,r] out of the sum over the two halves h of the sampling points, which is distributivity and needs the
   summands real: that is where the precondition (every input finite) is used. The narrowing of the contraction's
   operands to a 16-bit format is the identity on the extended reals, and the final division is the same operation by
   the same constant on both sides.

   The three frames are the generated ones (the reference's is its generated run with the result dropped); the
   idealization rewrote no operation, so `preserves` is `True`. The value proof is in Proof/: SumForms and SumLaw (the
   two arrangements of the double sum and their equality), Ext (arrays as families over the naturals), RefSide (the
   reference read at a subcarrier; the inputs are real under the precondition), KerPieces, KerPayload, KerBlocks,
   KerAccum and KerRun (the kernel's body, tiles, accumulation, output array and host tail read at a subcarrier). -/
import proofs.«153576_j89824946028957_2_alg».proof.Defs
import proofs.«153576_j89824946028957_2_alg».proof.Proof.Gen.Kernel
import proofs.«153576_j89824946028957_2_alg».proof.Proof.Gen.Kernel.Skeleton
import proofs.«153576_j89824946028957_2_alg».proof.Proof.Gen.Kernel.Launch
import proofs.«153576_j89824946028957_2_alg».proof.Proof.Gen.Kernel.Points
import proofs.«153576_j89824946028957_2_alg».proof.Proof.Gen.Kernel.Frame
import proofs.«153576_j89824946028957_2_alg».proof.Proof.Gen.KernelIdeal
import proofs.«153576_j89824946028957_2_alg».proof.Proof.Gen.KernelIdeal.Skeleton
import proofs.«153576_j89824946028957_2_alg».proof.Proof.Gen.KernelIdeal.Launch
import proofs.«153576_j89824946028957_2_alg».proof.Proof.Gen.KernelIdeal.Points
import proofs.«153576_j89824946028957_2_alg».proof.Proof.Gen.KernelIdeal.Frame
import proofs.«153576_j89824946028957_2_alg».proof.Proof.Gen.ReferenceIdeal
import proofs.«153576_j89824946028957_2_alg».proof.Proof.Gen.Pre_finite_inputs
import proofs.«153576_j89824946028957_2_alg».proof.Proof.Gen.ReferenceIdeal.Run
import proofs.«153576_j89824946028957_2_alg».proof.Proof.Gen.ReferenceIdeal.Read
import proofs.«153576_j89824946028957_2_alg».proof.Proof.KerRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's function of the kernel's arguments: the kernel by the value proof, under the
    precondition; the reference by its run, its arguments agreeing with the kernel's. -/
theorem algebraic : Cert.algebraic_KernelIdeal_ReferenceIdeal := by
  intro m ρ m' ρ' hpre hagree
  refine ⟨fun c => Cert.ReferenceIdeal.Read.val_main_v7 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
